-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S1x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S128x128 .f32) (main_arg4 : FVec F S128 .f32) (main_arg5 : FVec F S1x128 .f32) (main_arg6 : FVec F S128 .f32) (main_arg7 : FVec F S128x128 .f32) (main_arg8 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S6400x128 : Shape := ⟨2, ![6400, 128]⟩
abbrev S6400x1 : Shape := ⟨2, ![6400, 1]⟩

abbrev nBuf : Space → Nat
  | .hbm => 49
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x64, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .bf16⟩
  | .hbm, ⟨32, _⟩ => ⟨S800000x128, .bf16⟩
  | .hbm, ⟨33, _⟩ => ⟨S800000x1, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S800000x128, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .local _ .vmem, ⟨0, _⟩ => ⟨S6400x128, .bf16⟩
  | .local _ .vmem, ⟨1, _⟩ => ⟨S6400x128, .bf16⟩
  | .local _ .vmem, ⟨2, _⟩ => ⟨S6400x1, .f32⟩
  | .local _ .vmem, ⟨3, _⟩ => ⟨S6400x1, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S6400x128, .f32⟩
  | .local _ .vmem, ⟨11, _⟩ => ⟨S6400x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  broadcasts_S6400x1_S6400x128 : S6400x1.Broadcasts S6400x128
  broadcasts_S1x128_S6400x128 : S1x128.Broadcasts S6400x128
  slices_S800000x128_S800000x64_0_0 : S800000x128.Slices ![0, 0] S800000x64
  slices_S800000x128_S800000x64_0_64 : S800000x128.Slices ![0, 64] S800000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S6400x128_S128x128_S6400x128_1_0_0_1_n_n_wf : DotDims.WF S6400x128 S128x128 S6400x128 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S800000x1.size a
  hwx0_1 : ∀ i : grid0.Coords, EltTy.bits .f32 = 32 ∨ (Rect.block (s := S800000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S6400x128.size a ≤ S800000x128.size a
  hwx0_8 : ∀ i : grid0.Coords, EltTy.bits .f32 = 32 ∨ (Rect.block (s := S800000x128) S6400x128.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v19) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S6400x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1600000x64 : Shape := ⟨2, ![1600000, 64]⟩
abbrev S1600000 : Shape := ⟨1, ![1600000]⟩
abbrev S1600000x1 : Shape := ⟨2, ![1600000, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x128, .f32⟩
  | .hbm, ⟨32, _⟩ => ⟨S800000x1, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S1x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S1x128, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S1x128, .f32⟩
  | .hbm, ⟨64, _⟩ => ⟨S800000x128, .f32⟩
  | .hbm, ⟨65, _⟩ => ⟨S800000x128, .f32⟩
  | .hbm, ⟨66, _⟩ => ⟨S800000x64, .f32⟩
  | .hbm, ⟨67, _⟩ => ⟨S800000x64, .f32⟩
  | .hbm, ⟨68, _⟩ => ⟨S1600000x64, .f32⟩
  | .hbm, ⟨69, _⟩ => ⟨S1600000, .i32⟩
  | .hbm, ⟨70, _⟩ => ⟨S_, .f32⟩
  | .hbm, ⟨71, _⟩ => ⟨S50000x64, .f32⟩
  | .hbm, ⟨72, _⟩ => ⟨S1600000x1, .i32⟩
  | .hbm, ⟨73, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S800000x1_S800000x128_0_1 : S800000x1.BroadcastsInDim S800000x128 (![0, 1] : Fin 2 → Fin S800000x128.rank)
  bcast_S1x128_S800000x128_0_1 : S1x128.BroadcastsInDim S800000x128 (![0, 1] : Fin 2 → Fin S800000x128.rank)
  bcast_S128_S1x128_1 : S128.BroadcastsInDim S1x128 (![1] : Fin 1 → Fin S1x128.rank)
  bcast_S_S800000x128 : S_.BroadcastsInDim S800000x128 (![] : Fin 0 → Fin S800000x128.rank)
  slices_S800000x128_S800000x64_0_0 : S800000x128.Slices ![0, 0] S800000x64
  slices_S800000x128_S800000x64_0_64 : S800000x128.Slices ![0, 64] S800000x64
  concatenates_S800000x64_S800000x64_S1600000x64_d0 : Shape.Concatenates [S800000x64, S800000x64] S1600000x64 0
  concatenates_S800000_S800000_S1600000_d0 : Shape.Concatenates [S800000, S800000] S1600000 0
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x64_S1600000x1_S1600000x64_1_0_0_1_wf : ScatterDims.WF S50000x64 S1600000x1 S1600000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.EdgeMlp.lean ====
/-
  One edge of the time-conditioned two-layer SiLU network, on extended reals.

  An edge carries a feature row `e` (the two endpoint feature rows side by side, 128 entries) and a time `τ`.
  With SiLU z = z · 1/(1 + e^(-z)) the network is

      temb k   = SiLU (τ · wt k + bt k)
      hidden k = SiLU ((Σ_j e j · W1 (j, k) + temb k) + b1 k)
      out q    = Σ_k hidden k · W2 (k, q) + b2 q

  with every sum over 128 entries and the additions grouped as written. Nothing here depends on how many edges
  there are: a block of 6400 edges and the whole list of 800000 compute the same function of an edge's own row.
-/
import Idealize.ShloMosaic.PureOps.Ideal
import Idealize.ShloMosaic.Lib.ValueIdx

noncomputable section

namespace Cert.EdgeMlp

open Idealize.ShloMosaic Idealize.ShloMosaic.ValueIdx
open scoped BigOperators

/-- A 128 × 128 weight matrix. -/
abbrev Mat := (⟨2, ![128, 128]⟩ : Shape).Idx → EReal

/-- SiLU on the extended reals: z · 1/(1 + e^(-z)). -/
def silu (z : EReal) : EReal := z * Ideal.logistic z

/-- Hidden unit `k` of one edge. -/
def hidden (e : Fin 128 → EReal) (τ : EReal) (W1 : Mat) (b1 wt bt : Fin 128 → EReal) (k : Fin 128) : EReal :=
  silu (((∑ j : Fin 128, e j * W1 (ix2 j k)) + silu (τ * wt k + bt k)) + b1 k)

/-- Output entry `q` of one edge. -/
def out (e : Fin 128 → EReal) (τ : EReal) (W1 : Mat) (b1 wt bt : Fin 128 → EReal) (W2 : Mat) (b2 : Fin 128 → EReal)
    (q : Fin 128) : EReal :=
  (∑ k : Fin 128, hidden e τ W1 b1 wt bt k * W2 (ix2 k q)) + b2 q

end Cert.EdgeMlp

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KernelBody.lean ====
/-
  What one grid point of the kernel stores, read at an index.

  At a grid point the body holds a block of 6400 edges: their feature rows (6400 × 128), their times as a
  column (6400 × 1), and the whole weights and bias rows. Entry (p, q) of what it stores is the network's
  output `q` for edge `p` of the block: both matrix products start from a zero accumulator, so each is the
  plain sum over the 128 contracted entries; the time column and the bias rows are repeated along the other
  axis; a change of float format does nothing on extended reals.
-/
import proofs.«160705_j46196668236124_2_alg».proof.Proof.Gen.KernelIdeal.Skeleton
import proofs.«160705_j46196668236124_2_alg».proof.Proof.EdgeMlp
import proofs.«160705_j46196668236124_2_alg».proof.Proof.LibMatmul2d
import Idealize.ShloMosaic.Lib.ValueIdx
import Idealize.ShloMosaic.Lib.ValueLayout
import Idealize.ShloMosaic.Lib.Pipeline.Value

noncomputable section

namespace Cert.KernelBody

open Idealize.ShloMosaic Idealize.ShloMosaic.TcCoe Idealize.ShloMosaic.ValueIdx Cert.KernelIdeal Cert.KernelIdeal.Gen
open scoped BigOperators

/-- A column of 6400 entries repeated along 128 lanes reads, at (p, k), the column's entry p. -/
theorem col_bcast {α : Type} (v : S6400x1.Idx → α) (h : S6400x1.Broadcasts S6400x128) (p : Fin 6400) (k : Fin 128) :
    broadcastTo S6400x128 v h (ix2 p k) = v (ix2 p (0 : Fin 1)) := by
  refine broadcastTo_apply v h (ix2 p k) (ix2 p (0 : Fin 1)) fun ax => ?_
  match ax with
  | ⟨0, _⟩ =>
    show p.val = if (6400 : Nat) = 1 then 0 else p.val
    rw [if_neg (by decide)]
  | ⟨1, _⟩ =>
    show 0 = if (1 : Nat) = 1 then 0 else k.val
    rw [if_pos rfl]

/-- A row of 128 entries repeated down 6400 rows reads, at (p, k), the row's entry k. -/
theorem row_bcast {α : Type} (v : S1x128.Idx → α) (h : S1x128.Broadcasts S6400x128) (p : Fin 6400) (k : Fin 128) :
    broadcastTo S6400x128 v h (ix2 p k) = v (ix2 (0 : Fin 1) k) :=
  broadcastTo_1b_ab_apply v h p k

/-- The logistic function lane by lane. -/
theorem logistic_at {s : Shape} {φ : FTy} (x : FVec Ideal s φ) (i : s.Idx) : logistic x i = Ideal.logistic (x i) := rfl

/-- A 6400 × 128 by 128 × 128 product into a zero accumulator, at (p, q). -/
theorem matmul_at {φ₁ φ₂ : FTy} (a : FVec Ideal S6400x128 φ₁) (b : FVec Ideal S128x128 φ₂) (p : Fin 6400) (q : Fin 128) :
    matmul dot_S6400x128_S128x128_S6400x128_1_0_0_1_n_n none a b (constant S6400x128 .f32 0x00000000#32) (ix2 p q)
      = ∑ k : Fin 128, a (ix2 p k) * b (ix2 k q) := by
  rw [show dot_S6400x128_S128x128_S6400x128_1_0_0_1_n_n = DotDims.plain 6400 128 128 from rfl]
  exact Cert.LibMatmul2d.matmul_plain_apply a b p q

/-- Entry (p, q) of the block the body stores is the network's output q for the block's edge p. -/
theorem pay_apply (v0 : Vec Ideal S6400x128 .bf16) (v2 : Vec Ideal S6400x1 .f32) (v4 v5 v7 v9 : Vec Ideal S1x128 .f32)
    (v11 v13 : Vec Ideal S128x128 .f32) (p : Fin 6400) (q : Fin 128) :
    k0_pay1 (F := Ideal) v0 v2 v4 v5 v7 v9 v11 v13 (ix2 p q)
      = Cert.EdgeMlp.out (fun j => v0 (ix2 p j)) (v2 (ix2 p (0 : Fin 1))) v11 (fun k => v7 (ix2 (0 : Fin 1) k))
          (fun k => v4 (ix2 (0 : Fin 1) k)) (fun k => v5 (ix2 (0 : Fin 1) k)) v13 (fun k => v9 (ix2 (0 : Fin 1) k)) q := by
  unfold k0_pay1
  simp only [shapeCast_self, addf_apply, mulf_apply, truncf_apply, logistic_at, matmul_at, row_bcast, col_bcast]
  rfl

end Cert.KernelBody

end
-- ==== Proof.KernelArray.lean ====
/-
  The array the kernel's region leaves: the network's output for every edge.

  The grid has 125 points; point t handles the 6400 edges 6400·t … 6400·t + 6399. Its feature block and its time
  block are those rows of the two edge arrays, the weights and bias rows are whole at every point, and it writes
  back rows 6400·t … 6400·t + 6399 of the result. So what point t writes back is those rows of ONE function of the
  arrays the region finds — row r is the network applied to row r of the features and entry r of the times — and
  the 125 row bands cover all 800000 rows.
-/
import proofs.«160705_j46196668236124_2_alg».proof.Proof.Gen.KernelIdeal.Frame
import proofs.«160705_j46196668236124_2_alg».proof.Proof.KernelBody
import Idealize.ShloMosaic.Lib.Pipeline.Value

set_option maxRecDepth 16384

noncomputable section

namespace Cert.KernelArray

open Idealize.ShloMosaic Idealize.ShloMosaic.TcCoe Idealize.ShloMosaic.ValueIdx Idealize.SL.Sem
open Cert.KernelIdeal Cert.KernelIdeal.Gen
open Idealize.ShloMosaic.Pipeline (Dat)

/-- The network's output for every edge, as one function of the arrays the region is launched on: the edge features,
    the times as a column, the weights, and the three bias rows and the time weights as rows. -/
def netOut (E : Vec Ideal S800000x128 .bf16) (T : Vec Ideal S800000x1 .f32) (W1 : Vec Ideal S128x128 .f32)
    (B1 Wt Bt : Vec Ideal S1x128 .f32) (W2 : Vec Ideal S128x128 .f32) (B2 : Vec Ideal S1x128 .f32) :
    Vec Ideal S800000x128 .f32 := fun i =>
  Cert.EdgeMlp.out (fun j => E (ix2 (i 0) j)) (T (ix2 (i 0) (0 : Fin 1))) W1 (fun k => B1 (ix2 (0 : Fin 1) k))
    (fun k => Wt (ix2 (0 : Fin 1) k)) (fun k => Bt (ix2 (0 : Fin 1) k)) W2 (fun k => B2 (ix2 (0 : Fin 1) k)) (i 1)

theorem zero_offsets : (![0, 0] : Fin 2 → Nat) = fun _ => 0 := funext fun a => by fin_cases a <;> rfl

/-- The index maps over the grid: the two edge windows and the result window are at row band t, every other
    coordinate of every window is 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

variable (m : (ℓ : Loc nD τ sig) → Buf (Elt Ideal) ℓ)

/-- Edge p of point t's block is edge 6400·t + p of the list. -/
def edgeOf (t : Fin cfg0.N) (p : Fin 6400) : Fin 800000 :=
  ⟨t.val * 6400 + p.val, by have h1 : t.val < 125 := t.isLt; have h2 := p.isLt; omega⟩

/-- Point t's feature block at (p, j) is the feature array at (6400·t + p, j). -/
theorem features_blk (c : Dev nD) (t : Fin cfg0.N) (p : Fin 6400) (j : Fin 128) :
    iblk m c 0 t (ix2 p j) = V m c main_v19 (ix2 (edgeOf t p) j) := by
  obtain ⟨e0, e1, -⟩ := index_facts t
  show V m c main_v19 (((cfg0.win 0).blk t).view.emb (ix2 p j)) = V m c main_v19 (ix2 (edgeOf t p) j)
  refine congrArg _ (funext fun a => Fin.ext ?_)
  match a with
  | ⟨0, _⟩ => show win0_0.index t (0 : Fin 2) * 6400 + 1 * p.val = t.val * 6400 + p.val; omega
  | ⟨1, _⟩ => show win0_0.index t (1 : Fin 2) * 128 + 1 * j.val = j.val; omega

/-- Point t's time block at (p, 0) is the time column at (6400·t + p, 0). -/
theorem times_blk (c : Dev nD) (t : Fin cfg0.N) (p : Fin 6400) :
    iblk m c 1 t (ix2 p (0 : Fin 1)) = V m c main_v20 (ix2 (edgeOf t p) (0 : Fin 1)) := by
  obtain ⟨-, -, e0, e1, -⟩ := index_facts t
  show V m c main_v20 (((cfg0.win 1).blk t).view.emb (ix2 p (0 : Fin 1))) = V m c main_v20 (ix2 (edgeOf t p) (0 : Fin 1))
  refine congrArg _ (funext fun a => Fin.ext ?_)
  match a with
  | ⟨0, _⟩ => show win0_1.index t (0 : Fin 2) * 6400 + 1 * p.val = t.val * 6400 + p.val; omega
  | ⟨1, _⟩ => show win0_1.index t (1 : Fin 2) * 1 + 1 * 0 = 0; omega

/-- The first weight matrix is whole at every point. -/
theorem w1_blk (c : Dev nD) (t : Fin cfg0.N) : iblk m c 2 t = V m c main_arg3 := by
  obtain ⟨-, -, -, -, e0, e1, -⟩ := index_facts t
  funext y
  show V m c main_arg3 (((cfg0.win 2).blk t).view.emb y) = V m c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row is whole at every point. -/
theorem b1_blk (c : Dev nD) (t : Fin cfg0.N) : iblk m c 3 t = V m c main_v21 := by
  obtain ⟨-, -, -, -, -, -, e0, e1, -⟩ := index_facts t
  funext y
  show V m c main_v21 (((cfg0.win 3).blk t).view.emb y) = V m c main_v21 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The time weights are whole at every point. -/
theorem wt_blk (c : Dev nD) (t : Fin cfg0.N) : iblk m c 4 t = V m c main_arg5 := by
  obtain ⟨-, -, -, -, -, -, -, -, e0, e1, -⟩ := index_facts t
  funext y
  show V m c main_arg5 (((cfg0.win 4).blk t).view.emb y) = V m c main_arg5 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The time bias row is whole at every point. -/
theorem bt_blk (c : Dev nD) (t : Fin cfg0.N) : iblk m c 5 t = V m c main_v22 := by
  obtain ⟨-, -, -, -, -, -, -, -, -, -, e0, e1, -⟩ := index_facts t
  funext y
  show V m c main_v22 (((cfg0.win 5).blk t).view.emb y) = V m c main_v22 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The second weight matrix is whole at every point. -/
theorem w2_blk (c : Dev nD) (t : Fin cfg0.N) : iblk m c 6 t = V m c main_arg7 := by
  obtain ⟨-, -, -, -, -, -, -, -, -, -, -, -, e0, e1, -⟩ := index_facts t
  funext y
  show V m c main_arg7 (((cfg0.win 6).blk t).view.emb y) = V m c main_arg7 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- The second bias row is whole at every point. -/
theorem b2_blk (c : Dev nD) (t : Fin cfg0.N) : iblk m c 7 t = V m c main_v23 := by
  obtain ⟨-, -, -, -, -, -, -, -, -, -, -, -, -, -, e0, e1, -⟩ := index_facts t
  funext y
  show V m c main_v23 (((cfg0.win 7).blk t).view.emb y) = V m c main_v23 y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Entry (p, q) of point t's result block sits at (6400·t + p, q) of the result array. -/
theorem result_emb (t : Fin cfg0.N) (p : Fin 6400) (q : Fin 128) :
    ((cfg0.win 8).blk t).view.emb (ix2 p q) = ix2 (edgeOf t p) q := by
  obtain ⟨-, -, -, -, -, -, -, -, -, -, -, -, -, -, -, -, e0, e1⟩ := index_facts t
  refine funext fun a => Fin.ext ?_
  match a with
  | ⟨0, _⟩ => show win0_8.index t (0 : Fin 2) * 6400 + 1 * p.val = t.val * 6400 + p.val; omega
  | ⟨1, _⟩ => show win0_8.index t (1 : Fin 2) * 128 + 1 * q.val = q.val; omega

/-- The whole-array function of the arrays the region finds. -/
abbrev regionOut (c : Dev nD) : Vec Ideal S800000x128 .f32 :=
  netOut (V m c main_v19) (V m c main_v20) (V m c main_arg3) (V m c main_v21) (V m c main_arg5) (V m c main_v22)
    (V m c main_arg7) (V m c main_v23)

/-- What point t writes back is its row band of the whole-array function. -/
theorem flushed_eq (c : Dev nD) (t : Fin cfg0.N) :
    (dats m 0 c).flushed 8 t = ((cfg0.win 8).blk t).view.read (Elt Ideal) (regionOut m c) := by
  show (cfg0.win 8).cut (grid0.coords t) ((dats m 0 c).after 8 t) = _
  rw [after0_8]
  unfold out0_8
  rw [View.canon_unit_zero zero_offsets]
  simp only [View.ld_unit_zero (S := S6400x128) zero_offsets, View.ld_unit_zero (S := S6400x1) zero_offsets,
    View.ld_unit_zero (S := S1x128) zero_offsets, View.ld_unit_zero (S := S128x128) zero_offsets]
  rw [w1_blk, b1_blk, wt_blk, bt_blk, w2_blk, b2_blk]
  funext y
  obtain ⟨p, q, rfl⟩ : ∃ (p : Fin 6400) (q : Fin 128), y = ix2 p q := ⟨y 0, y 1, eq_ix2 y⟩
  refine (Cert.KernelBody.pay_apply (iblk m c 0 t) (iblk m c 1 t) (V m c main_arg5) (V m c main_v22) (V m c main_v21)
    (V m c main_v23) (V m c main_arg3) (V m c main_arg7) p q).trans ?_
  show _ = regionOut m c (((cfg0.win 8).blk t).view.emb (ix2 p q))
  rw [result_emb]
  unfold regionOut netOut
  simp only [features_blk, times_blk]

/-- The 125 row bands cover the array. -/
theorem covered (i : S800000x128.Idx) :
    ∃ t : Fin cfg0.N, (cfg0.win 8).flush t = true ∧ i ∈ ((cfg0.win 8).blk t).view.set := by
  have hi0 : (i 0).val < 800000 := (i 0).isLt
  have hi1 : (i 1).val < 128 := (i 1).isLt
  let t : Fin cfg0.N := ⟨(i 0).val / 6400, by show (i 0).val / 6400 < 125; omega⟩
  obtain ⟨-, -, -, -, -, -, -, -, -, -, -, -, -, -, -, -, e0, e1⟩ := index_facts t
  have ht : t.val = (i 0).val / 6400 := rfl
  refine ⟨t, flush0_8 t, ?_⟩
  show i ∈ ((View.whole main_v24).slice (win0_8.rect t)).set
  rw [View.set_slice_whole, Rect.mem_set_unit]
  intro a
  match a with
  | ⟨0, _⟩ =>
    show win0_8.index t (0 : Fin 2) * 6400 ≤ (i 0).val ∧ (i 0).val < win0_8.index t (0 : Fin 2) * 6400 + 6400
    omega
  | ⟨1, _⟩ =>
    show win0_8.index t (1 : Fin 2) * 128 ≤ (i 1).val ∧ (i 1).val < win0_8.index t (1 : Fin 2) * 128 + 128
    omega

/-- After the region the result array holds the network's output for every edge. -/
theorem final (c : Dev nD) : (dats m 0 c).arrAt 8 cfg0.N = regionOut m c :=
  (dats m 0 c).arrAt_eq_of_cover 8 (regionOut m c) (fun t _ => flushed_eq m c t) covered

end Cert.KernelArray

end
-- ==== Proof.LibRowScatterAdd.lean ====
/-
  Adding rows into a table at run-time row numbers (a segment sum), read one entry at a time.

  The host's scatter with an addition body takes a table x of R rows and C columns, a column of N integer
  row numbers (an N × 1 array, read as SIGNED integers) and N update rows of C entries each. With the
  dimension numbers fixed below, update row e is added, entry by entry, into row idx(e, 0) of the table;
  an update whose row number is negative or at least R falls outside the table and is dropped. So entry
  (r, q) of the result is

      x (r, q) + Σ_{e < N, idx(e, 0) = r} upd (e, q).

  The file derives this from the general definition of the result index (start index plus window
  coordinate on each table axis) for ANY extents R, C, N and any width of the integer row numbers:

    * on the row axis the start is the row number and the window coordinate is 0;
    * on the column axis the start is 0 and the window coordinate is the update's column;
    * hence update entry (e, c) lands on table entry (i₀, i₁) exactly when idx(e, 0) = i₀ as integers
      and c = i₁ (the bounds 0 ≤ idx(e, 0) < R are then automatic, i₀ being a row of the table);
    * the sum over the update entries that land on (r, q) is a double sum over e and c in which the
      column condition c = q picks one term.

  Last, a sum over the first N₁ + N₂ naturals splits into the sum over the first N₁ and the sum over the
  next N₂, which is how a sum over all update rows is cut into two consecutive runs of rows.
-/
import Idealize.ShloMosaic.PureOps.Ideal
import Idealize.ShloMosaic.PureOps.Dims
import Idealize.ShloMosaic.Lib.ValueIdx

noncomputable section

namespace Cert.LibRowScatterAdd

open Idealize.ShloMosaic Idealize.ShloMosaic.ValueIdx
open scoped BigOperators

variable {R C N : Nat}

/-- The dimension numbers of a row scatter: table [R, C], row numbers [N, 1] with the index vector on
    axis 1, updates [N, C]; axis 1 of the updates is the window axis, axis 0 of the table is inserted
    (a window is one row wide on it) and is the axis the row number addresses. -/
abbrev segDims (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ :=
  { updateWindowDims := [1], insertedWindowDims := [0], scatterDimsToOperandDims := [0], indexVectorDim := 1, wf := wf }

section Coordinates

variable (wf : ScatterDims.WF (⟨2, ![R, C]⟩ : Shape) ⟨2, ![N, 1]⟩ ⟨2, ![N, C]⟩ [1] [0] [0] 1)

/-- On the row axis the window of update entry j starts at the row number of j's update row, read signed. -/
theorem segDims_start_row {w : Nat} (idx : IVec (⟨2, ![N, 1]⟩ : Shape) w) (j : (⟨2, ![N, C]⟩ : Shape).Idx) :
    (segDims wf).start j idx 0 = (idx (ix2 (j 0) (0 : Fin 1))).toInt := by
  unfold ScatterDims.start
  rw [dif_pos (show (0 : Fin 2) ∈ (segDims wf).scatterDimsToOperandDims from List.mem_singleton.mpr rfl)]
  have hsi : (segDims wf).siIdx j ⟨List.idxOf (0 : Fin 2) (segDims wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the row number does not address, the window starts at 0. -/
theorem segDims_start_col {w : Nat} (idx : IVec (⟨2, ![N, 1]⟩ : Shape) w) (j : (⟨2, ![N, C]⟩ : Shape).Idx) :
    (segDims wf).start j idx 1 = 0 := by
  unfold ScatterDims.start
  rw [dif_neg (show ¬ (1 : Fin 2) ∈ [(0 : Fin 2)] by decide)]

/-- On the row axis, an inserted axis, the window coordinate is 0. -/
theorem segDims_window_row (j : (⟨2, ![N, C]⟩ : Shape).Idx) : (segDims wf).window j 0 = 0 := by
  unfold ScatterDims.window
  have hm : ¬ (0 : Fin 2) ∈ (segDims wf).sKept := show ¬ (0 : Fin 2) ∈ [(1 : Fin 2)] by decide
  rw [dif_neg hm]

/-- On the column axis the window coordinate is the update entry's column. -/
theorem segDims_window_col (j : (⟨2, ![N, C]⟩ : Shape).Idx) : (segDims wf).window j 1 = (j 1).val := by
  unfold ScatterDims.window
  have hm : (1 : Fin 2) ∈ (segDims wf).sKept := show (1 : Fin 2) ∈ [(1 : Fin 2)] by decide
  rw [dif_pos hm]
  rfl

/-- WHERE AN UPDATE ENTRY LANDS: update entry j lands on table entry i exactly when the row number of j's
    update row, read signed, is i's row and j's column is i's column. -/
theorem segDims_resultIdx_eq_some_iff {w : Nat} (idx : IVec (⟨2, ![N, 1]⟩ : Shape) w)
    (j : (⟨2, ![N, C]⟩ : Shape).Idx) (i : (⟨2, ![R, C]⟩ : Shape).Idx) :
    (segDims wf).resultIdx? j idx = some i ↔
      (idx (ix2 (j 0) (0 : Fin 1))).toInt = ((i 0).val : Int) ∧ (j 1).val = (i 1).val := by
  have hs0 := segDims_start_row wf idx j
  have hs1 := segDims_start_col wf idx j
  have hw0 := segDims_window_row wf j
  have hw1 := segDims_window_col wf j
  have hi0 := idx2_lt0 i
  have hi1 := idx2_lt1 i
  unfold ScatterDims.resultIdx?
  split
  · rename_i h
    rw [Option.some.injEq]
    have h0 := h 0
    have h1 := h 1
    constructor
    · intro e
      have e0 : ((segDims wf).start j idx 0 + (segDims wf).window j 0).toNat = (i 0).val :=
        congrArg (fun f : (⟨2, ![R, C]⟩ : Shape).Idx => (f 0).val) e
      have e1 : ((segDims wf).start j idx 1 + (segDims wf).window j 1).toNat = (i 1).val :=
        congrArg (fun f : (⟨2, ![R, C]⟩ : Shape).Idx => (f 1).val) e
      rw [hs0, hw0] at e0 h0
      rw [hs1, hw1] at e1 h1
      constructor <;> omega
    · rintro ⟨e0, e1⟩
      funext a; refine Fin.ext ?_
      match a with
      | ⟨0, _⟩ =>
        show ((segDims wf).start j idx 0 + (segDims wf).window j 0).toNat = (i 0).val
        rw [hs0, hw0, e0]; omega
      | ⟨1, _⟩ =>
        show ((segDims wf).start j idx 1 + (segDims wf).window j 1).toNat = (i 1).val
        rw [hs1, hw1]; omega
  · rename_i h
    constructor
    · intro e; exact absurd e (by simp)
    · rintro ⟨e0, e1⟩
      refine absurd (fun a => ?_) h
      match a with
      | ⟨0, _⟩ =>
        show 0 ≤ (segDims wf).start j idx 0 + (segDims wf).window j 0 ∧
          (segDims wf).start j idx 0 + (segDims wf).window j 0 < ((R : Nat) : Int)
        rw [hs0, hw0, e0]; omega
      | ⟨1, _⟩ =>
        show 0 ≤ (segDims wf).start j idx 1 + (segDims wf).window j 1 ∧
          (segDims wf).start j idx 1 + (segDims wf).window j 1 < ((C : Nat) : Int)
        rw [hs1, hw1]; omega

/-- THE ROW SCATTER-ADD READ AT ONE ENTRY: entry (r, q) of the result is the table's entry plus the sum,
    over the update rows whose row number read signed is r, of their entry in column q. -/
theorem segSum_apply {w : Nat} (x : (⟨2, ![R, C]⟩ : Shape).Idx → EReal) (idx : IVec (⟨2, ![N, 1]⟩ : Shape) w)
    (upd : (⟨2, ![N, C]⟩ : Shape).Idx → EReal) (r : Fin R) (q : Fin C) :
    Ideal.hostScatterAdd (segDims wf) x idx upd (ix2 r q)
      = x (ix2 r q) + ∑ e : Fin N, if (idx (ix2 e (0 : Fin 1))).toInt = (r.val : Int) then upd (ix2 e q) else 0 := by
  unfold Ideal.hostScatterAdd
  congr 1
  rw [Finset.sum_filter, sum_idx2]
  refine Finset.sum_congr rfl fun e _ => ?_
  have hc : ∀ c : Fin C, ((segDims wf).resultIdx? (ix2 e c) idx = some (ix2 r q)) ↔
      ((idx (ix2 e (0 : Fin 1))).toInt = (r.val : Int) ∧ c = q) := by
    intro c
    rw [segDims_resultIdx_eq_some_iff, Fin.ext_iff]
    exact Iff.rfl
  simp only [hc, ite_and]
  by_cases ht : (idx (ix2 e (0 : Fin 1))).toInt = (r.val : Int)
  · simp only [if_pos ht, Finset.sum_ite_eq', Finset.mem_univ, ↓reduceIte]
  · simp only [if_neg ht, Finset.sum_const_zero]

end Coordinates

/-- A sum over the first N₁ + N₂ naturals is the sum over the first N₁ plus the sum over the next N₂. -/
theorem sum_fin_split {M : Type*} [AddCommMonoid M] {N₁ N₂ N : Nat} (hN : N = N₁ + N₂) (f : Fin N → M) :
    ∑ e : Fin N, f e = (∑ e : Fin N₁, f ⟨e.val, by omega⟩) + ∑ e : Fin N₂, f ⟨N₁ + e.val, by omega⟩ := by
  subst hN
  rw [Fin.sum_univ_add]
  rfl

end Cert.LibRowScatterAdd

end
-- ==== Proof.ScatterTail.lean ====
import proofs.«160705_j46196668236124_2_alg».proof.KernelIdeal
import proofs.«160705_j46196668236124_2_alg».proof.ReferenceIdeal
import proofs.«160705_j46196668236124_2_alg».proof.Proof.Gen.KernelIdeal
import proofs.«160705_j46196668236124_2_alg».proof.Proof.Gen.ReferenceIdeal
import proofs.«160705_j46196668236124_2_alg».proof.Proof.LibRowScatterAdd
import Idealize.ShloMosaic.Lib.ValueIdx
import Idealize.ShloMosaic.Lib.ValueLayout
import Idealize.ShloMosaic.Lib.Pipeline.Value
import Idealize.ShloMosaic.PureOps.Ideal.Laws

/-
  The two programs after the network: one row scatter-add of a stacked table against the sum of two.

  Both programs end by adding the rows of the network's output O (800000 rows of 128 entries) into a table of
  50000 rows of 64 entries that starts at zero. Write A for the left half of O (columns 0 to 63), B for the right
  half (columns 64 to 127), and r, c for the two lists of 800000 row numbers.

    * One program adds the rows of A at the row numbers r into a zero table, adds the rows of B at the row
      numbers c into another zero table, and adds the two tables.
    * The other stacks A on top of B (1600000 rows), stacks r on top of c, and adds the stacked rows at the
      stacked row numbers into one zero table.

  Read at the entry (n, q), a row scatter-add into a zero table is 0 plus the sum, over the update rows whose row
  number (read as a signed integer) is n, of their entry in column q. A sum over the 1600000 stacked rows splits
  into the sum over the first 800000, where the stacked arrays read A and r, and the sum over the last 800000,
  where they read B and c. So both programs compute

      (Σ_{e, r e = n} A (e, q)) + (Σ_{e, c e = n} B (e, q))

  at every entry, the first as (0 + Σ) + (0 + Σ) and the second as 0 + (Σ + Σ). Nothing is used about O, r or c.
-/

noncomputable section

namespace Cert.ScatterTail

open Idealize.ShloMosaic Idealize.ShloMosaic.ValueIdx
open Cert.LibRowScatterAdd
open scoped BigOperators

/-! ## The layout operations read at an entry, for any extents -/

section Reads
variable {α : Type}

/-- A list of N entries made a column (N rows, 1 entry each) reads, at row e, the list's entry e. -/
theorem column_apply {N : Nat} (hN : N ≠ 1)
    (h : (⟨1, ![N]⟩ : Shape).BroadcastsInDim ⟨2, ![N, 1]⟩ (![0] : Fin 1 → Fin 2)) (x : (⟨1, ![N]⟩ : Shape).Idx → α)
    (e : Fin N) :
    broadcastInDim (⟨2, ![N, 1]⟩ : Shape) (![0] : Fin 1 → Fin 2) h x (ix2 e (0 : Fin 1)) = x (ix1 e) :=
  broadcastInDim_apply _ h x (ix2 e (0 : Fin 1)) (ix1 e) (fun a => match a with
    | ⟨0, _⟩ => by show e.val = if N = 1 then 0 else e.val; rw [if_neg hN])

/-- One value spread over a table reads that value at every entry. -/
theorem splat_apply {R C : Nat}
    (h : (⟨0, ![]⟩ : Shape).BroadcastsInDim ⟨2, ![R, C]⟩ (![] : Fin 0 → Fin 2)) (x : (⟨0, ![]⟩ : Shape).Idx → α)
    (i : (⟨2, ![R, C]⟩ : Shape).Idx) :
    broadcastInDim (⟨2, ![R, C]⟩ : Shape) (![] : Fin 0 → Fin 2) h x i = x ix0 :=
  broadcastInDim_apply _ h x i ix0 (fun a => a.elim0)

/-- Two lists stacked: a position in the first list's range reads the first list. -/
theorem stack1_left {N₁ N₂ N : Nat}
    (h : Shape.Concatenates [(⟨1, ![N₁]⟩ : Shape), ⟨1, ![N₂]⟩] ⟨1, ![N]⟩ 0)
    (x : (⟨1, ![N₁]⟩ : Shape).Idx → α) (y : (⟨1, ![N₂]⟩ : Shape).Idx → α) (e : Fin N₁) (he : e.val < N) :
    concatenate (⟨1, ![N]⟩ : Shape) 0 [⟨⟨1, ![N₁]⟩, x⟩, ⟨⟨1, ![N₂]⟩, y⟩] h (ix1 ⟨e.val, he⟩) = x (ix1 e) :=
  concatenate_pair_apply_left 0 x y h (ix1 ⟨e.val, he⟩) rfl (ix1 e) (fun b => match b with
    | ⟨0, _⟩ => rfl)

/-- Two lists stacked: a position past the first list's range reads the second list, the first length less. -/
theorem stack1_right {N₁ N₂ N : Nat}
    (h : Shape.Concatenates [(⟨1, ![N₁]⟩ : Shape), ⟨1, ![N₂]⟩] ⟨1, ![N]⟩ 0)
    (x : (⟨1, ![N₁]⟩ : Shape).Idx → α) (y : (⟨1, ![N₂]⟩ : Shape).Idx → α) (e : Fin N₂) (he : N₁ + e.val < N) :
    concatenate (⟨1, ![N]⟩ : Shape) 0 [⟨⟨1, ![N₁]⟩, x⟩, ⟨⟨1, ![N₂]⟩, y⟩] h (ix1 ⟨N₁ + e.val, he⟩) = y (ix1 e) :=
  concatenate_pair_apply_right 0 x y h (ix1 ⟨N₁ + e.val, he⟩) rfl rfl (ix1 e)
    (fun b hb => absurd (Subsingleton.elim _ _) hb)
    (by show e.val + N₁ = N₁ + e.val; omega)

/-- Two tables stacked by rows: a row in the first table's range reads the first table. -/
theorem stack2_left {N₁ N₂ N C : Nat}
    (h : Shape.Concatenates [(⟨2, ![N₁, C]⟩ : Shape), ⟨2, ![N₂, C]⟩] ⟨2, ![N, C]⟩ 0)
    (x : (⟨2, ![N₁, C]⟩ : Shape).Idx → α) (y : (⟨2, ![N₂, C]⟩ : Shape).Idx → α) (e : Fin N₁) (he : e.val < N)
    (q : Fin C) :
    concatenate (⟨2, ![N, C]⟩ : Shape) 0 [⟨⟨2, ![N₁, C]⟩, x⟩, ⟨⟨2, ![N₂, C]⟩, y⟩] h (ix2 ⟨e.val, he⟩ q) = x (ix2 e q) :=
  concatenate_pair_apply_left 0 x y h (ix2 ⟨e.val, he⟩ q) rfl (ix2 e q) (fun b => match b with
    | ⟨0, _⟩ => rfl
    | ⟨1, _⟩ => rfl)

/-- Two tables stacked by rows: a row past the first table's range reads the second table, the first height less. -/
theorem stack2_right {N₁ N₂ N C : Nat}
    (h : Shape.Concatenates [(⟨2, ![N₁, C]⟩ : Shape), ⟨2, ![N₂, C]⟩] ⟨2, ![N, C]⟩ 0)
    (x : (⟨2, ![N₁, C]⟩ : Shape).Idx → α) (y : (⟨2, ![N₂, C]⟩ : Shape).Idx → α) (e : Fin N₂) (he : N₁ + e.val < N)
    (q : Fin C) :
    concatenate (⟨2, ![N, C]⟩ : Shape) 0 [⟨⟨2, ![N₁, C]⟩, x⟩, ⟨⟨2, ![N₂, C]⟩, y⟩] h (ix2 ⟨N₁ + e.val, he⟩ q) = y (ix2 e q) :=
  concatenate_pair_apply_right 0 x y h (ix2 ⟨N₁ + e.val, he⟩ q) rfl rfl (ix2 e q)
    (fun b => match b with
      | ⟨0, _⟩ => fun hb => absurd rfl hb
      | ⟨1, _⟩ => fun _ => rfl)
    (by show e.val + N₁ = N₁ + e.val; omega)

end Reads

/-! ## The host's row scatter-add at the exact values -/

/-- At the exact values the host's accumulating scatter is the exact sum, so a row scatter-add read at entry
    (r, q) is the table's entry plus the sum, over the update rows numbered r, of their entry in column q. -/
theorem host_segSum_apply {R C N w : Nat} {φ : FTy}
    (wf : ScatterDims.WF (⟨2, ![R, C]⟩ : Shape) ⟨2, ![N, 1]⟩ ⟨2, ![N, C]⟩ [1] [0] [0] 1)
    (x : FVec Ideal (⟨2, ![R, C]⟩ : Shape) φ) (idx : IVec (⟨2, ![N, 1]⟩ : Shape) w)
    (upd : FVec Ideal (⟨2, ![N, C]⟩ : Shape) φ) (r : Fin R) (q : Fin C) :
    Host.scatterAdd (segDims wf) x idx upd (ix2 r q)
      = x (ix2 r q) + ∑ e : Fin N, if (idx (ix2 e (0 : Fin 1))).toInt = (r.val : Int) then upd (ix2 e q) else 0 := by
  unfold Host.scatterAdd
  exact segSum_apply wf x idx upd r q

/-! ## The two programs' last lines -/

open Cert.KernelIdeal Cert.KernelIdeal.Facts₀ in
/-- The kernel program after the network: scatter-add the left half of O at the row numbers r, the right half at
    the row numbers c, each into a zero table, and add the two tables. -/
def kernelTail (O : FVec Ideal S800000x128 .f32) (r c : IVec S800000 32) : FVec Ideal S50000x64 .f32 :=
  addf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 r)
      (extractStridedSlice S800000x64 ![0, 0] O slices_S800000x128_S800000x64_0_0))
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 c)
      (extractStridedSlice S800000x64 ![0, 64] O slices_S800000x128_S800000x64_0_64))

open Cert.ReferenceIdeal Cert.ReferenceIdeal.Facts₀ in
/-- The reference program after the network: stack the two halves of O by rows, stack r on c, and scatter-add
    the stacked rows at the stacked row numbers into one zero table. -/
def refTail (O : FVec Ideal S800000x128 .f32) (r c : IVec S800000 32) : FVec Ideal S50000x64 .f32 :=
  Host.scatterAdd scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0
      (concatenate S1600000 0 [⟨S800000, r⟩, ⟨S800000, c⟩] concatenates_S800000_S800000_S1600000_d0))
    (concatenate S1600000x64 0 [⟨S800000x64, extractStridedSlice S800000x64 ![0, 0] O slices_S800000x128_S800000x64_0_0⟩,
      ⟨S800000x64, extractStridedSlice S800000x64 ![0, 64] O slices_S800000x128_S800000x64_0_64⟩] concatenates_S800000x64_S800000x64_S1600000x64_d0)

/-! ## Both at an entry -/

/-- The value both programs have at entry (n, q), for update tables A, B and row numbers r, c: the sum of A's
    column q over the rows numbered n by r, plus the sum of B's column q over the rows numbered n by c. -/
def rowSums (A B : (⟨2, ![800000, 64]⟩ : Shape).Idx → EReal) (r c : IVec (⟨1, ![800000]⟩ : Shape) 32)
    (n : Fin 50000) (q : Fin 64) : EReal :=
  (∑ e : Fin 800000, if (r (ix1 e)).toInt = (n.val : Int) then A (ix2 e q) else 0)
    + ∑ e : Fin 800000, if (c (ix1 e)).toInt = (n.val : Int) then B (ix2 e q) else 0

open Cert.KernelIdeal Cert.KernelIdeal.Facts₀ in
/-- One of the kernel program's two scatter-adds into a zero table, at entry (n, q): the sum of the update
    table's column q over the rows numbered n (the leading 0 + dropped). -/
theorem kernel_scatter_apply (idx : IVec S800000 32) (U : FVec Ideal S800000x64 .f32) (n : Fin 50000) (q : Fin 64) :
    Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 idx) U (ix2 n q)
      = ∑ e : Fin 800000, if (idx (ix1 e)).toInt = (n.val : Int) then U (ix2 e q) else 0 := by
  rw [show scatter_S50000x64_S800000x1_S800000x64_1_0_0_1
      = segDims (R := 50000) (C := 64) (N := 800000) scatter_S50000x64_S800000x1_S800000x64_1_0_0_1_wf from rfl]
  rw [host_segSum_apply, splat_apply, constant_apply, Ideal.ofBits_zero_f32, zero_add]
  refine Finset.sum_congr rfl fun e _ => ?_
  rw [column_apply (N := 800000) (by decide)]

open Cert.ReferenceIdeal Cert.ReferenceIdeal.Facts₀ in
/-- The reference program's scatter-add of the stacked tables at the stacked row numbers into a zero table, at
    entry (n, q): the sum over the first 800000 stacked rows reads A and r, the sum over the last 800000 reads
    B and c. -/
theorem ref_scatter_apply (A B : FVec Ideal S800000x64 .f32) (r c : IVec S800000 32) (n : Fin 50000) (q : Fin 64) :
    Host.scatterAdd scatter_S50000x64_S1600000x1_S1600000x64_1_0_0_1
        (broadcastInDim S50000x64 ![] bcast_S_S50000x64 (constant (F := Ideal) S_ .f32 0x00000000#32))
        (broadcastInDim S1600000x1 ![0] bcast_S1600000_S1600000x1_0
          (concatenate S1600000 0 [⟨S800000, r⟩, ⟨S800000, c⟩] concatenates_S800000_S800000_S1600000_d0))
        (concatenate S1600000x64 0 [⟨S800000x64, A⟩, ⟨S800000x64, B⟩] concatenates_S800000x64_S800000x64_S1600000x64_d0)
        (ix2 n q)
      = rowSums A B r c n q := by
  rw [show scatter_S50000x64_S1600000x1_S1600000x64_1_0_0_1
      = segDims (R := 50000) (C := 64) (N := 1600000) scatter_S50000x64_S1600000x1_S1600000x64_1_0_0_1_wf from rfl]
  rw [host_segSum_apply, splat_apply, constant_apply, Ideal.ofBits_zero_f32, zero_add,
    sum_fin_split (N₁ := 800000) (N₂ := 800000) rfl]
  unfold rowSums
  refine congrArg₂ (· + ·) ?_ ?_
  · refine Finset.sum_congr rfl fun e _ => ?_
    rw [column_apply (N := 1600000) (by decide), stack1_left, stack2_left]
  · refine Finset.sum_congr rfl fun e _ => ?_
    rw [column_apply (N := 1600000) (by decide), stack1_right, stack2_right]

open Cert.KernelIdeal Cert.KernelIdeal.Facts₀ in
/-- The kernel program's last lines at entry (n, q). -/
theorem kernelTail_apply (O : FVec Ideal S800000x128 .f32) (r c : IVec S800000 32) (n : Fin 50000) (q : Fin 64) :
    kernelTail O r c (ix2 n q)
      = rowSums (extractStridedSlice S800000x64 ![0, 0] O slices_S800000x128_S800000x64_0_0)
          (extractStridedSlice S800000x64 ![0, 64] O slices_S800000x128_S800000x64_0_64) r c n q := by
  unfold kernelTail rowSums
  rw [addf_apply, kernel_scatter_apply, kernel_scatter_apply]

open Cert.ReferenceIdeal Cert.ReferenceIdeal.Facts₀ in
/-- The reference program's last lines at entry (n, q). -/
theorem refTail_apply (O : FVec Ideal S800000x128 .f32) (r c : IVec S800000 32) (n : Fin 50000) (q : Fin 64) :
    refTail O r c (ix2 n q)
      = rowSums (extractStridedSlice S800000x64 ![0, 0] O slices_S800000x128_S800000x64_0_0)
          (extractStridedSlice S800000x64 ![0, 64] O slices_S800000x128_S800000x64_0_64) r c n q := by
  unfold refTail
  exact ref_scatter_apply _ _ r c n q

/-- THE TWO PROGRAMS AGREE AFTER THE NETWORK, whatever the network's output O and the row numbers r, c. -/
theorem tail_eq (O : FVec Ideal Cert.KernelIdeal.S800000x128 .f32) (r c : IVec Cert.KernelIdeal.S800000 32) :
    kernelTail O r c = refTail O r c := by
  funext i
  rw [eq_ix2 i]
  exact (kernelTail_apply O r c (i 0) (i 1)).trans (refTail_apply O r c (i 0) (i 1)).symm

end Cert.ScatterTail

end
-- ==== Proof.KernelRun.lean ====
/-
  The kernel's run, read: its result and its arguments after every execution.

  After the region the host cuts the network's output into its left and right halves (64 columns each), sums the left
  half's rows into the node slots the first index row names and the right half's into the slots the second names, and
  adds the two. The array those lines read is the one the region left — the network's output for every edge — and the
  index rows are the ones cut before the region; no line writes an argument.
-/
import proofs.«160705_j46196668236124_2_alg».proof.Proof.Gen.KernelIdeal.Frame
import proofs.«160705_j46196668236124_2_alg».proof.Proof.KernelArray
import proofs.«160705_j46196668236124_2_alg».proof.Proof.ScatterTail
import Idealize.ShloMosaic.Lib.StableHlo.Run

set_option maxRecDepth 16384

noncomputable section

namespace Cert.KernelRun

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The kernel's result: the two scatter-sums of the halves of the network's output, added. -/
def result (c : Dev nD) : Buf (Elt Ideal) ((c : Thread nD τ).loc main_v33) :=
  Cert.ScatterTail.kernelTail (Cert.KernelArray.regionOut m c) (V m c main_v1) (V m c main_v3)

/-- The lines after the region compute `result` from the array the region left and the index rows. -/
theorem tail_eq (c : Dev nD) :
    Pipeline.afterTail₀ cfgs (dats m) 0 (V0 m) [hostOps1] c main_v33 = result m c := by
  have hO : Pipeline.withArrays spec0 c (V0 m c) (fun w => (dats m 0 c).arrAt w cfg0.N) (Proc.devRef .tc main_v24)
      = Cert.KernelArray.regionOut m c :=
    (Pipeline.withArrays_arr spec0 launch0.win.arr_inj c _ _ 8).trans (Cert.KernelArray.final m c)
  have hr : Pipeline.withArrays spec0 c (V0 m c) (fun w => (dats m 0 c).arrAt w cfg0.N) (Proc.devRef .tc main_v1)
      = V m c main_v1 :=
    Pipeline.withArrays_of_ne _ c (V0 m c) _ main_v1 (by exact (by decide : ∀ w, Pipeline.arrRef spec0 w ≠ main_v1))
  have hc : Pipeline.withArrays spec0 c (V0 m c) (fun w => (dats m 0 c).arrAt w cfg0.N) (Proc.devRef .tc main_v3)
      = V m c main_v3 :=
    Pipeline.withArrays_of_ne _ c (V0 m c) _ main_v3 (by exact (by decide : ∀ w, Pipeline.arrRef spec0 w ≠ main_v3))
  unfold Pipeline.afterTail₀
  show StableHlo.after hostOps1 _ (Proc.devRef .tc main_v33) = _
  after_results
  rw [hO, hr, hc]
  rfl

/-- Every weakly fair execution terminates with the result array at `result` and the arguments unchanged. -/
theorem run : θ_run defs (onTc (τ := τ) (main (F := Ideal))) ⟨m, fun _ => 0, ρ⟩ (fun r => ∀ c : Dev nD,
      r.2.mem ((c.tc : Thread nD τ).loc main_v33) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v33 (Pipeline.mem_restRefs_of main_v33 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c)⟩)
    (run_main m ρ)

end Cert.KernelRun

end
-- ==== Proof.KernelHost.lean ====
/-
  What the region finds in the arrays it stages.

  Before the region the host cuts the two index rows out of the edge list, gathers the endpoint feature rows and lays
  them side by side (the change of float format before the gather does nothing on extended reals), turns the times
  into a column and the three bias vectors into rows. The index rows, the edge features and the time column are the
  very terms the reference computes from the same arguments; the bias rows are the vectors read as one row.
-/
import proofs.«160705_j46196668236124_2_alg».proof.Proof.Gen.KernelIdeal.Frame
import proofs.«160705_j46196668236124_2_alg».proof.Proof.Gen.ReferenceIdeal.Read
import Idealize.ShloMosaic.Lib.StableHlo.Run

set_option maxRecDepth 16384

noncomputable section

namespace Cert.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The first index row (each edge's source node). -/
theorem rows_eq (c : Dev nD) :
    (V m c main_v1 : (⟨S800000, .i32⟩ : BufTy).Contents (Elt Ideal))
      = Cert.ReferenceIdeal.Read.val_main_v1 (F := Ideal) (m ((c : Thread nD τ).loc main_arg1)) := by
  show StableHlo.after hostOps0 (fun b => m (c, b)) (Proc.devRef .tc main_v1) = _
  after_results_simp
  rfl

/-- The second index row (each edge's target node). -/
theorem cols_eq (c : Dev nD) :
    (V m c main_v3 : (⟨S800000, .i32⟩ : BufTy).Contents (Elt Ideal))
      = Cert.ReferenceIdeal.Read.val_main_v3 (F := Ideal) (m ((c : Thread nD τ).loc main_arg1)) := by
  show StableHlo.after hostOps0 (fun b => m (c, b)) (Proc.devRef .tc main_v3) = _
  after_results_simp
  rfl

/-- The edge features: the two gathered endpoint rows side by side. -/
theorem features_eq (c : Dev nD) :
    (V m c main_v19 : (⟨S800000x128, .bf16⟩ : BufTy).Contents (Elt Ideal))
      = Cert.ReferenceIdeal.Read.val_main_v18 (F := Ideal) (m ((c : Thread nD τ).loc main_arg0)) (m ((c : Thread nD τ).loc main_arg1)) := by
  show StableHlo.after hostOps0 (fun b => m (c, b)) (Proc.devRef .tc main_v19) = _
  after_results_simp
  rfl

/-- The times as a column. -/
theorem times_eq (c : Dev nD) :
    (V m c main_v20 : (⟨S800000x1, .f32⟩ : BufTy).Contents (Elt Ideal))
      = Cert.ReferenceIdeal.Read.val_main_v19 (F := Ideal) (m ((c : Thread nD τ).loc main_arg2)) := by
  show StableHlo.after hostOps0 (fun b => m (c, b)) (Proc.devRef .tc main_v20) = _
  after_results_simp
  rfl

/-- The first bias vector as one row. -/
theorem b1_eq (c : Dev nD) :
    (V m c main_v21 : (⟨S1x128, .f32⟩ : BufTy).Contents (Elt Ideal))
      = shapeCast S1x128 (m ((c : Thread nD τ).loc main_arg4)) shapeCasts_S128_S1x128 := by
  show StableHlo.after hostOps0 (fun b => m (c, b)) (Proc.devRef .tc main_v21) = _
  after_results_simp
  rfl

/-- The time bias vector as one row. -/
theorem bt_eq (c : Dev nD) :
    (V m c main_v22 : (⟨S1x128, .f32⟩ : BufTy).Contents (Elt Ideal))
      = shapeCast S1x128 (m ((c : Thread nD τ).loc main_arg6)) shapeCasts_S128_S1x128 := by
  show StableHlo.after hostOps0 (fun b => m (c, b)) (Proc.devRef .tc main_v22) = _
  after_results_simp
  rfl

/-- The second bias vector as one row. -/
theorem b2_eq (c : Dev nD) :
    (V m c main_v23 : (⟨S1x128, .f32⟩ : BufTy).Contents (Elt Ideal))
      = shapeCast S1x128 (m ((c : Thread nD τ).loc main_arg8)) shapeCasts_S128_S1x128 := by
  show StableHlo.after hostOps0 (fun b => m (c, b)) (Proc.devRef .tc main_v23) = _
  after_results_simp
  rfl

end Cert.KernelHost

end
-- ==== Proof.LibSiluTanh.lean ====
/-
  General laws on the reals and the extended reals: the logistic function written through the hyperbolic
  tangent of the half argument.

  For every real `r`:  1 / (1 + e^(-r)) = 1/2 + (1/2) · tanh (r/2).
  Indeed with a = e^(r/2) > 0 one has tanh (r/2) = (a - a⁻¹) / (a + a⁻¹), so
  1/2 + (1/2) · tanh (r/2) = a / (a + a⁻¹) = 1 / (1 + a⁻²) = 1 / (1 + e^(-r)).
  Multiplying by r gives the "SiLU" law  r · logistic r = t + t · tanh t  with t = r/2.

  The same two laws are then stated on the extended reals at real (finite) arguments, in the spelling
  the float operations have at the exact instance: the float words of 1/2, 1, 112 and 12544 are read as
  the reals they denote.
-/
import Idealize.ShloMosaic.PureOps.Ideal
import Idealize.ShloMosaic.Lib.ValueIdx
import Mathlib.Analysis.SpecialFunctions.Trigonometric.DerivHyp

noncomputable section

namespace Cert.LibSiluTanh

open Idealize.ShloMosaic

/-! ## The float words of this family of kernels, as reals -/

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The zero word denotes 0. -/
theorem ofBits_zero : Ideal.ofBits .f32 0x00000000#32 = ((0 : ℝ) : EReal) := by
  simp [Ideal.ofBits, Ideal.ieee]

/-- The word of `112.0` denotes the real 112. -/
theorem ofBits_112 : Ideal.ofBits .f32 0x42E00000#32 = ((112 : ℝ) : EReal) := by
  simp [Ideal.ofBits, Ideal.ieee, -EReal.coe_mul]; norm_num

/-- The word of `12544.0` denotes the real 12544 = 112 · 112. -/
theorem ofBits_12544 : Ideal.ofBits .f32 0x46440000#32 = ((12544 : ℝ) : EReal) := by
  simp [Ideal.ofBits, Ideal.ieee, -EReal.coe_mul]; norm_num

/-! ## On the reals -/

/-- The logistic function through the hyperbolic tangent of the half argument. -/
theorem logistic_eq_tanh_half (r : ℝ) :
    (1 + Real.exp (-r))⁻¹ = 1 / 2 + 1 / 2 * Real.tanh (1 / 2 * r) := by
  have ha : 0 < Real.exp (1 / 2 * r) := Real.exp_pos _
  have hneg : Real.exp (-(1 / 2 * r)) = (Real.exp (1 / 2 * r))⁻¹ := Real.exp_neg _
  have hr : Real.exp (-r) = (Real.exp (1 / 2 * r))⁻¹ * (Real.exp (1 / 2 * r))⁻¹ := by
    rw [← hneg, ← Real.exp_add]; congr 1; ring
  rw [Real.tanh_eq_sinh_div_cosh, Real.sinh_eq, Real.cosh_eq, hneg, hr]
  set a := Real.exp (1 / 2 * r) with hadef
  have ha' : a ≠ 0 := ne_of_gt ha
  have h1 : a + a⁻¹ ≠ 0 := by positivity
  have h2 : 1 + a⁻¹ * a⁻¹ ≠ 0 := by positivity
  field_simp
  ring

/-- SiLU through the hyperbolic tangent: r · logistic r = t + t · tanh t with t = r/2. -/
theorem silu_eq_tanh_half (r : ℝ) :
    r * (1 + Real.exp (-r))⁻¹ = 1 / 2 * r + 1 / 2 * r * Real.tanh (1 / 2 * r) := by
  rw [logistic_eq_tanh_half]; ring

/-- The mean over a 112 × 112 plane taken at once is the mean of the row means. -/
theorem mean_of_means (s : ℝ) : s / 12544 = s / 112 / 112 := by
  rw [div_div]; norm_num

/-! ## On the extended reals, at real arguments -/

/-- The logistic function of a real, in the spelling the exact instance gives the kernel's
    `0.5 + 0.5 · tanh (0.5 · g)`. -/
theorem logistic_coe_eq_tanh (r : ℝ) :
    Ideal.logistic (r : EReal)
      = Ideal.ofBits .f32 0x3F000000#32
        + Ideal.ofBits .f32 0x3F000000#32 * Ideal.tanh (Ideal.ofBits .f32 0x3F000000#32 * (r : EReal)) := by
  rw [Ideal.logistic_coe, ofBits_half, ← EReal.coe_mul, Ideal.tanh_coe, ← EReal.coe_mul, ← EReal.coe_add,
    logistic_eq_tanh_half]

/-- SiLU of a real: the reference's `v · logistic v` is the kernel's `t + t · tanh t`, `t = 0.5 · v`. -/
theorem silu_coe_eq_tanh (r : ℝ) :
    (r : EReal) * Ideal.logistic (r : EReal)
      = Ideal.ofBits .f32 0x3F000000#32 * (r : EReal)
        + Ideal.ofBits .f32 0x3F000000#32 * (r : EReal)
          * Ideal.tanh (Ideal.ofBits .f32 0x3F000000#32 * (r : EReal)) := by
  rw [Ideal.logistic_coe, ofBits_half, ← EReal.coe_mul, ← EReal.coe_mul, Ideal.tanh_coe, ← EReal.coe_mul,
    ← EReal.coe_add, silu_eq_tanh_half]

/-- The host's spelling of the logistic function, `1 / (1 + e^(-x))`, is the one-operation form. -/
theorem host_logistic_eq (x : EReal) :
    Ideal.div (Ideal.ofBits .f32 0x3F800000#32) (Ideal.ofBits .f32 0x3F800000#32 + Ideal.exp (-x))
      = Ideal.logistic x := by
  rw [ofBits_one]; rfl

/-- The logistic function and SiLU of a real are real. -/
theorem logistic_coe_real (r : ℝ) : ∃ s : ℝ, Ideal.logistic (r : EReal) = (s : EReal) :=
  ⟨_, Ideal.logistic_coe r⟩

/-- Division of a real by the words of 112 twice is division by the word of 12544 once. -/
theorem div_112_112 (r : ℝ) :
    Ideal.div (Ideal.div (r : EReal) (Ideal.ofBits .f32 0x42E00000#32)) (Ideal.ofBits .f32 0x42E00000#32)
      = Ideal.div (r : EReal) (Ideal.ofBits .f32 0x46440000#32) := by
  rw [ofBits_112, ofBits_12544, Ideal.div_coe (by norm_num : (112 : ℝ) ≠ 0),
    Ideal.div_coe (by norm_num : (112 : ℝ) ≠ 0), Ideal.div_coe (by norm_num : (12544 : ℝ) ≠ 0),
    ← EReal.coe_mul, ← EReal.coe_mul, ← EReal.coe_mul]
  congr 1; ring

/-! ## On vectors of real entries, in the programs' own spelling -/

/-- SiLU of a vector whose entries are all real: the reference's `v · logistic v` is the kernel's
    `t + t · tanh t` with `t = 0.5 · v`, entry by entry. -/
theorem silu_vec {s : Shape} (v : FVec Ideal s .f32) (hv : ∀ i, ∃ r : ℝ, v i = ((r : ℝ) : EReal)) :
    mulf v (logistic v)
      = addf (mulf (broadcast s (Scalar.ofBits (F := Ideal) .f32 0x3F000000#32)) v)
          (mulf (mulf (broadcast s (Scalar.ofBits (F := Ideal) .f32 0x3F000000#32)) v)
            (tanh (mulf (broadcast s (Scalar.ofBits (F := Ideal) .f32 0x3F000000#32)) v))) := by
  funext i
  obtain ⟨r, hr⟩ := hv i
  show v i * Ideal.logistic (v i)
    = Ideal.ofBits .f32 0x3F000000#32 * v i
      + Ideal.ofBits .f32 0x3F000000#32 * v i * Ideal.tanh (Ideal.ofBits .f32 0x3F000000#32 * v i)
  rw [hr]; exact silu_coe_eq_tanh r

/-- The gate of a vector whose entries are all real: `logistic g` is the kernel's `0.5 + 0.5 · tanh (0.5 · g)`. -/
theorem gate_vec {s : Shape} (g : FVec Ideal s .f32) (hg : ∀ i, ∃ r : ℝ, g i = ((r : ℝ) : EReal)) :
    logistic g
      = addf (broadcast s (Scalar.ofBits (F := Ideal) .f32 0x3F000000#32))
          (mulf (broadcast s (Scalar.ofBits (F := Ideal) .f32 0x3F000000#32))
            (tanh (mulf (broadcast s (Scalar.ofBits (F := Ideal) .f32 0x3F000000#32)) g))) := by
  funext i
  obtain ⟨r, hr⟩ := hg i
  show Ideal.logistic (g i)
    = Ideal.ofBits .f32 0x3F000000#32
      + Ideal.ofBits .f32 0x3F000000#32 * Ideal.tanh (Ideal.ofBits .f32 0x3F000000#32 * g i)
  rw [hr]; exact logistic_coe_eq_tanh r

/-- SiLU and the gate keep real entries real. -/
theorem silu_real (r : ℝ) : ∃ s : ℝ, (r : EReal) * Ideal.logistic (r : EReal) = (s : EReal) :=
  ⟨r * (1 + Real.exp (-r))⁻¹, by rw [Ideal.logistic_coe, ← EReal.coe_mul]⟩

/-! ## Real entries stay real -/

/-- A value is real when it is neither infinity. The operations of this family of kernels — sum, product, quotient
    by a non-zero real, exponential, hyperbolic tangent, logistic — take reals to reals, which is what lets the ring
    laws be used on every intermediate value once the inputs are finite. -/
def IsReal (x : EReal) : Prop := ∃ r : ℝ, x = ((r : ℝ) : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_div {x : EReal} (hx : IsReal x) {d : ℝ} (hd : d ≠ 0) : IsReal (Ideal.div x (d : EReal)) := by
  obtain ⟨a, rfl⟩ := hx; exact ⟨a * (1 / d), by rw [Ideal.div_coe hd, ← EReal.coe_mul]⟩

theorem isReal_exp {x : EReal} (hx : IsReal x) : IsReal (Ideal.exp x) := by
  obtain ⟨a, rfl⟩ := hx; exact ⟨Real.exp a, Ideal.exp_coe a⟩

theorem isReal_tanh {x : EReal} (hx : IsReal x) : IsReal (Ideal.tanh x) := by
  obtain ⟨a, rfl⟩ := hx; exact ⟨Real.tanh a, Ideal.tanh_coe a⟩

theorem isReal_logistic {x : EReal} (hx : IsReal x) : IsReal (Ideal.logistic x) := by
  obtain ⟨a, rfl⟩ := hx; exact ⟨_, Ideal.logistic_coe a⟩

theorem isReal_half : IsReal (Ideal.ofBits .f32 0x3F000000#32) := ⟨_, ofBits_half⟩
theorem isReal_zero : IsReal (Ideal.ofBits .f32 0x00000000#32) := ⟨_, ofBits_zero⟩

end Cert.LibSiluTanh

end
-- ==== Proof.RefStages.lean ====
import proofs.«160705_j46196668236124_2_alg».proof.Proof.Gen.ReferenceIdeal.Run
import proofs.«160705_j46196668236124_2_alg».proof.Proof.Gen.ReferenceIdeal.Read
import proofs.«160705_j46196668236124_2_alg».proof.Proof.EdgeMlp
import proofs.«160705_j46196668236124_2_alg».proof.Proof.LibSiluTanh

/-
  The reference program's network output, read one entry at a time.

  The reference computes, for all 800000 edges at once, the two-layer SiLU network of the shared specification:
  broadcast rows for the time, the time weights and the three biases, two 128-term contractions, and SiLU spelled
  as z · (1 / (1 + e^(-z))). Reading each stage at the entry (e, q) gives exactly the specification's formula for
  edge e: the broadcasts pick the entry of their operand that does not depend on e (biases, time weights) or on
  the column (the time), the contractions are sums over the 128 columns of the edge's own row, and the spelled-out
  logistic function is the one-operation form. The gathered feature rows are left as they are: only their row e
  enters.
-/

noncomputable section

namespace Cert.RefStages

open Cert.ReferenceIdeal Cert.ReferenceIdeal.Gen Cert.ReferenceIdeal.Read
open Idealize.ShloMosaic Idealize.ShloMosaic.ValueIdx
open scoped BigOperators

variable (x0 : (⟨S50000x64, .f32⟩ : BufTy).Contents (Elt Ideal))
  (x1 : (⟨S2x800000, .i32⟩ : BufTy).Contents (Elt Ideal))
  (x2 : (⟨S800000, .f32⟩ : BufTy).Contents (Elt Ideal))
  (x3 : (⟨S128x128, .f32⟩ : BufTy).Contents (Elt Ideal))
  (x4 : (⟨S128, .f32⟩ : BufTy).Contents (Elt Ideal))
  (x5 : (⟨S1x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))

/-! ## Broadcast rows at an entry -/

/-- The time column, broadcast along the 128 columns: entry (e, k) is the time of edge e. -/
theorem time_at (e : Fin 800000) (k : Fin 128) :
    val_main_v20 (F := Ideal) x2 (ix2 e k) = x2 (ix1 e) := by
  rw [val_main_v20_apply, val_main_v19_apply]
  exact congrArg x2 (funext fun a => Fin.ext (by match a with | ⟨0, _⟩ => rfl))

/-- The time weights, broadcast along the edges: entry (e, k) is weight k. -/
theorem wt_at (e : Fin 800000) (k : Fin 128) :
    val_main_v21 (F := Ideal) x5 (ix2 e k) = x5 (ix2 (0 : Fin 1) k) := by
  rw [val_main_v21_apply]
  exact congrArg x5 (funext fun a => Fin.ext (by match a with | ⟨0, _⟩ => rfl | ⟨1, _⟩ => rfl))

/-- The time bias, broadcast along the edges: entry (e, k) is bias k. -/
theorem bt_at (e : Fin 800000) (k : Fin 128) :
    val_main_v24 (F := Ideal) x6 (ix2 e k) = x6 (ix1 k) := by
  rw [val_main_v24_apply, val_main_v23_apply]
  exact congrArg x6 (funext fun a => Fin.ext (by match a with | ⟨0, _⟩ => rfl))

/-- The first layer's bias, broadcast along the edges. -/
theorem b1_at (e : Fin 800000) (k : Fin 128) :
    val_main_v30 (F := Ideal) x4 (ix2 e k) = x4 (ix1 k) := by
  rw [val_main_v30_apply, val_main_v29_apply]
  exact congrArg x4 (funext fun a => Fin.ext (by match a with | ⟨0, _⟩ => rfl))

/-- The second layer's bias, broadcast along the edges. -/
theorem b2_at (e : Fin 800000) (q : Fin 128) :
    val_main_v35 (F := Ideal) x8 (ix2 e q) = x8 (ix1 q) := by
  rw [val_main_v35_apply, val_main_v34_apply]
  exact congrArg x8 (funext fun a => Fin.ext (by match a with | ⟨0, _⟩ => rfl))

/-! ## SiLU as the reference spells it -/

/-- z · (1 / (1 + e^(-z))) is SiLU z. -/
theorem silu_spelled (z : EReal) :
    z * Ideal.div (Ideal.ofBits .f32 0x3F800000#32) (Ideal.ofBits .f32 0x3F800000#32 + Ideal.exp (-z))
      = Cert.EdgeMlp.silu z := by
  rw [Cert.LibSiluTanh.host_logistic_eq]; rfl

/-! ## The time embedding -/

/-- The time embedding's argument at (e, k): τ_e · wt_k + bt_k. -/
theorem temb_arg_at (e : Fin 800000) (k : Fin 128) :
    val_main_v25 (F := Ideal) x2 x5 x6 (ix2 e k) = x2 (ix1 e) * x5 (ix2 (0 : Fin 1) k) + x6 (ix1 k) := by
  rw [val_main_v25_apply, val_main_v22_apply, time_at, wt_at, bt_at]; rfl

/-- The time embedding at (e, k). -/
theorem temb_at (e : Fin 800000) (k : Fin 128) :
    val_main_v26 (F := Ideal) x2 x5 x6 (ix2 e k)
      = Cert.EdgeMlp.silu (x2 (ix1 e) * x5 (ix2 (0 : Fin 1) k) + x6 (ix1 k)) := by
  rw [val_main_v26_apply, val_main_call0_v5_apply, val_main_call0_v4_apply, val_main_call0_cst_0_apply,
    val_main_call0_v3_apply, val_main_call0_v2_apply, val_main_call0_cst_apply, val_main_call0_v1_apply,
    val_main_call0_v0_apply, temb_arg_at]
  exact silu_spelled _

/-! ## The hidden layer -/

/-- The first contraction at (e, k): the sum over the 128 columns of edge e's feature row against column k of W1. -/
theorem matmul1_at (e : Fin 800000) (k : Fin 128) :
    val_main_v27 (F := Ideal) x0 x1 x3 (ix2 e k)
      = ∑ j : Fin 128, val_main_v18 (F := Ideal) x0 x1 (ix2 e j) * x3 (ix2 j k) := by
  rw [val_main_v27_apply]
  refine Finset.sum_congr rfl fun j _ => ?_
  have hl : lidx_main_v27 (ix2 e k) j = ix2 e j :=
    funext fun a => Fin.ext (by match a with | ⟨0, _⟩ => rfl | ⟨1, _⟩ => rfl)
  have hr : ridx_main_v27 (ix2 e k) j = ix2 j k :=
    funext fun a => Fin.ext (by match a with | ⟨0, _⟩ => rfl | ⟨1, _⟩ => rfl)
  rw [hl, hr]

/-- The hidden layer's argument at (e, k), grouped as the program adds: (contraction + time embedding) + bias. -/
theorem hidden_arg_at (e : Fin 800000) (k : Fin 128) :
    val_main_v31 (F := Ideal) x0 x1 x2 x3 x4 x5 x6 (ix2 e k)
      = ((∑ j : Fin 128, val_main_v18 (F := Ideal) x0 x1 (ix2 e j) * x3 (ix2 j k))
          + Cert.EdgeMlp.silu (x2 (ix1 e) * x5 (ix2 (0 : Fin 1) k) + x6 (ix1 k))) + x4 (ix1 k) := by
  rw [val_main_v31_apply, val_main_v28_apply, matmul1_at, temb_at, b1_at]; rfl

/-- The hidden layer at (e, k) is the specification's hidden unit k of edge e. -/
theorem hidden_at (e : Fin 800000) (k : Fin 128) :
    val_main_v32 (F := Ideal) x0 x1 x2 x3 x4 x5 x6 (ix2 e k)
      = Cert.EdgeMlp.hidden (fun j => val_main_v18 (F := Ideal) x0 x1 (ix2 e j)) (x2 (ix1 e)) x3
          (fun k => x4 (ix1 k)) (fun k => x5 (ix2 (0 : Fin 1) k)) (fun k => x6 (ix1 k)) k := by
  rw [val_main_v32_apply, val_main_call1_v5_apply, val_main_call1_v4_apply, val_main_call1_cst_0_apply,
    val_main_call1_v3_apply, val_main_call1_v2_apply, val_main_call1_cst_apply, val_main_call1_v1_apply,
    val_main_call1_v0_apply, hidden_arg_at]
  unfold Cert.EdgeMlp.hidden
  exact silu_spelled _

/-! ## The output layer -/

/-- The second contraction at (e, q): the sum over the 128 hidden units of edge e against column q of W2. -/
theorem matmul2_at (e : Fin 800000) (q : Fin 128) :
    val_main_v33 (F := Ideal) x0 x1 x2 x3 x4 x5 x6 x7 (ix2 e q)
      = ∑ k : Fin 128,
          Cert.EdgeMlp.hidden (fun j => val_main_v18 (F := Ideal) x0 x1 (ix2 e j)) (x2 (ix1 e)) x3
            (fun k => x4 (ix1 k)) (fun k => x5 (ix2 (0 : Fin 1) k)) (fun k => x6 (ix1 k)) k * x7 (ix2 k q) := by
  rw [val_main_v33_apply]
  refine Finset.sum_congr rfl fun k _ => ?_
  have hl : lidx_main_v33 (ix2 e q) k = ix2 e k :=
    funext fun a => Fin.ext (by match a with | ⟨0, _⟩ => rfl | ⟨1, _⟩ => rfl)
  have hr : ridx_main_v33 (ix2 e q) k = ix2 k q :=
    funext fun a => Fin.ext (by match a with | ⟨0, _⟩ => rfl | ⟨1, _⟩ => rfl)
  rw [hl, hr, hidden_at]

/-- The reference's network output at (e, q) is the specification's output entry q of edge e: its feature row is
    row e of the gathered features, its time is τ_e, and the weights and biases are the program's arguments. -/
theorem out_apply (e : Fin 800000) (q : Fin 128) :
    val_main_v36 (F := Ideal) x0 x1 x2 x3 x4 x5 x6 x7 x8 (ix2 e q)
      = Cert.EdgeMlp.out (fun j => val_main_v18 (F := Ideal) x0 x1 (ix2 e j)) (x2 (ix1 e)) x3
          (fun k => x4 (ix1 k)) (fun k => x5 (ix2 (0 : Fin 1) k)) (fun k => x6 (ix1 k)) x7
          (fun k => x8 (ix1 k)) q := by
  rw [val_main_v36_apply, matmul2_at, b2_at]
  unfold Cert.EdgeMlp.out
  rfl

end Cert.RefStages

end
-- ==== Proof.Bridge.lean ====
/-
  The kernel's result is the reference's result, as one function of the arguments.

  Both programs gather the same edge features and apply the same network to every edge; the kernel does it one band
  of 6400 edges at a time, the reference on all 800000 at once, and an edge's output depends on its own row only. The
  kernel then adds two scatter-sums (left halves by source node, right halves by target node) where the reference
  takes one scatter-sum of the halves stacked: the same finite sums, regrouped.
-/
import proofs.«160705_j46196668236124_2_alg».proof.Proof.KernelRun
import proofs.«160705_j46196668236124_2_alg».proof.Proof.KernelHost
import proofs.«160705_j46196668236124_2_alg».proof.Proof.RefStages
import proofs.«160705_j46196668236124_2_alg».proof.Proof.ScatterTail
import Idealize.ShloMosaic.Lib.ValueLayout

set_option maxRecDepth 16384

noncomputable section

namespace Cert.Bridge

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- The reference's network output, of the kernel's argument arrays. -/
abbrev refOut (c : Dev Cert.KernelIdeal.nD) :=
  Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The reference's result, of the kernel's argument arrays. -/
abbrev refResult (c : Dev Cert.KernelIdeal.nD) :=
  Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- A vector read as one row, at (0, k). -/
theorem row_of_vec (x : (⟨1, ![128]⟩ : Shape).Idx → EReal) (h : (⟨1, ![128]⟩ : Shape).ShapeCasts ⟨2, ![1, 128]⟩) (k : Fin 128) :
    shapeCast ⟨2, ![1, 128]⟩ x h (ix2 (0 : Fin 1) k) = x (ix1 k) :=
  shapeCast_a_1a_apply x h 0 k

/-- The time column at (e, 0) is the time of edge e. -/
theorem time_of_col (x2 : (⟨Cert.ReferenceIdeal.S800000, .f32⟩ : BufTy).Contents (Elt Ideal)) (e : Fin 800000) :
    Cert.ReferenceIdeal.Read.val_main_v19 (F := Ideal) x2 (ix2 e (0 : Fin 1)) = x2 (ix1 e) := by
  rw [Cert.ReferenceIdeal.Read.val_main_v19_apply]
  exact congrArg x2 (funext fun a => Fin.ext (by match a with | ⟨0, _⟩ => rfl))

/-- The array the kernel's region leaves is the reference's network output. -/
theorem regionOut_eq (c : Dev Cert.KernelIdeal.nD) : Cert.KernelArray.regionOut m c = refOut m c := by
  funext i
  obtain ⟨e, q, rfl⟩ : ∃ (e : Fin 800000) (q : Fin 128), i = ix2 e q := ⟨i 0, i 1, eq_ix2 i⟩
  refine Eq.trans ?_ (Cert.RefStages.out_apply _ _ _ _ _ _ _ _ _ e q).symm
  show Cert.EdgeMlp.out (fun j => Cert.KernelIdeal.Gen.V m c Cert.KernelIdeal.main_v19 (ix2 e j)) (Cert.KernelIdeal.Gen.V m c Cert.KernelIdeal.main_v20 (ix2 e (0 : Fin 1)))
      (Cert.KernelIdeal.Gen.V m c Cert.KernelIdeal.main_arg3) (fun k => Cert.KernelIdeal.Gen.V m c Cert.KernelIdeal.main_v21 (ix2 (0 : Fin 1) k))
      (fun k => Cert.KernelIdeal.Gen.V m c Cert.KernelIdeal.main_arg5 (ix2 (0 : Fin 1) k)) (fun k => Cert.KernelIdeal.Gen.V m c Cert.KernelIdeal.main_v22 (ix2 (0 : Fin 1) k))
      (Cert.KernelIdeal.Gen.V m c Cert.KernelIdeal.main_arg7) (fun k => Cert.KernelIdeal.Gen.V m c Cert.KernelIdeal.main_v23 (ix2 (0 : Fin 1) k)) q = _
  rw [Cert.KernelHost.features_eq, Cert.KernelHost.times_eq, Cert.KernelHost.b1_eq, Cert.KernelHost.bt_eq,
    Cert.KernelHost.b2_eq, Cert.KernelIdeal.Gen.V_main_arg3, Cert.KernelIdeal.Gen.V_main_arg5, Cert.KernelIdeal.Gen.V_main_arg7]
  have h4 : ∀ k : Fin 128, shapeCast Cert.KernelIdeal.S1x128 (m ((c.tc : Thread Cert.KernelIdeal.nD Cert.KernelIdeal.τ).loc Cert.KernelIdeal.main_arg4)) Cert.KernelIdeal.Gen.shapeCasts_S128_S1x128 (ix2 (0 : Fin 1) k)
      = (m ((c.tc : Thread Cert.KernelIdeal.nD Cert.KernelIdeal.τ).loc Cert.KernelIdeal.main_arg4)) (ix1 k) := fun k => row_of_vec _ _ k
  have h6 : ∀ k : Fin 128, shapeCast Cert.KernelIdeal.S1x128 (m ((c.tc : Thread Cert.KernelIdeal.nD Cert.KernelIdeal.τ).loc Cert.KernelIdeal.main_arg6)) Cert.KernelIdeal.Gen.shapeCasts_S128_S1x128 (ix2 (0 : Fin 1) k)
      = (m ((c.tc : Thread Cert.KernelIdeal.nD Cert.KernelIdeal.τ).loc Cert.KernelIdeal.main_arg6)) (ix1 k) := fun k => row_of_vec _ _ k
  have h8 : ∀ k : Fin 128, shapeCast Cert.KernelIdeal.S1x128 (m ((c.tc : Thread Cert.KernelIdeal.nD Cert.KernelIdeal.τ).loc Cert.KernelIdeal.main_arg8)) Cert.KernelIdeal.Gen.shapeCasts_S128_S1x128 (ix2 (0 : Fin 1) k)
      = (m ((c.tc : Thread Cert.KernelIdeal.nD Cert.KernelIdeal.τ).loc Cert.KernelIdeal.main_arg8)) (ix1 k) := fun k => row_of_vec _ _ k
  simp only [time_of_col, h4, h6, h8]

/-- The kernel's result is the reference's result of the same arguments. -/
theorem result_eq (c : Dev Cert.KernelIdeal.nD) : Cert.KernelRun.result m c = refResult m c := by
  unfold Cert.KernelRun.result
  rw [regionOut_eq, Cert.KernelHost.rows_eq, Cert.KernelHost.cols_eq, Cert.ScatterTail.tail_eq]
  rfl

end Cert.Bridge

end
-- ==== Proof.lean ====
/-
  The claim: the kernel, its idealization and the reference run and leave their arguments unchanged; the idealization
  rewrote nothing; and at the exact instance kernel and reference end with equal results.

  The kernel gathers each edge's two endpoint feature rows, runs a time-conditioned two-layer SiLU network over the
  edges in 125 bands of 6400 (the region), and scatter-sums the two halves of each edge's output into the source and
  target nodes. The reference runs the same network on all edges at once and scatter-sums the stacked halves. On
  extended reals the two agree with no finiteness needed: the network's sums are grouped the same way on both sides,
  the one-operation logistic is by definition 1/(1 + e^(-x)), a product into a zero accumulator is the plain
  contraction, and a scatter-sum is an exact finite sum, so two of them added are one over the stacked updates.
  The modules: EdgeMlp (the network on one edge), KernelBody (what one grid point stores), KernelArray (the array the
  region leaves), KernelHost (the arrays the region is launched on), KernelRun (the kernel's run read), RefStages
  (the reference's network output at an index), LibRowScatterAdd and ScatterTail (the scatter-sums), Bridge (the two
  results are one function of the arguments).
-/
import proofs.«160705_j46196668236124_2_alg».proof.Defs
import proofs.«160705_j46196668236124_2_alg».proof.Proof.Gen.Kernel
import proofs.«160705_j46196668236124_2_alg».proof.Proof.Gen.Kernel.Frame
import proofs.«160705_j46196668236124_2_alg».proof.Proof.Gen.KernelIdeal
import proofs.«160705_j46196668236124_2_alg».proof.Proof.Gen.KernelIdeal.Frame
import proofs.«160705_j46196668236124_2_alg».proof.Proof.Gen.ReferenceIdeal
import proofs.«160705_j46196668236124_2_alg».proof.Proof.Gen.ReferenceIdeal.Run
import proofs.«160705_j46196668236124_2_alg».proof.Proof.Gen.ReferenceIdeal.Read
import proofs.«160705_j46196668236124_2_alg».proof.Proof.Gen.Pre_finite_inputs
import proofs.«160705_j46196668236124_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, with equal results. -/
theorem algebraic : Cert.algebraic_KernelIdeal_ReferenceIdeal := by
  intro m ρ m' ρ' _ hagree
  refine ⟨fun c => Cert.KernelRun.result m c, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq]
  obtain ⟨h0, h1, h2, h3, h4, h5, h6, h7, h8⟩ := hagree c
  rw [h0, h1, h2, h3, h4, h5, h6, h7, h8]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
